-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S64x64 : Shape := ⟨2, ![64, 64]⟩
abbrev S64 : Shape := ⟨1, ![64]⟩
abbrev S64x1 : Shape := ⟨2, ![64, 1]⟩
abbrev S800000x2 : Shape := ⟨2, ![800000, 2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x64 .f32) (main_arg5 : FVec F S64 .f32) (main_arg6 : FVec F S64x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S50000x64 .f32) (main_arg1 : FVec F S800000x64 .f32) (main_arg2 : FVec F S64x64 .f32) (main_arg3 : FVec F S64 .f32) (main_arg4 : FVec F S64x64 .f32) (main_arg5 : FVec F S64 .f32) (main_arg6 : FVec F S64x1 .f32) (main_arg7 : IVec S800000x2 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S50000x64 : Shape := ⟨2, ![50000, 64]⟩
abbrev S800000x64 : Shape := ⟨2, ![800000, 64]⟩
abbrev S64x64 : Shape := ⟨2, ![64, 64]⟩
abbrev S64 : Shape := ⟨1, ![64]⟩
abbrev S64x1 : Shape := ⟨2, ![64, 1]⟩
abbrev S800000x2 : Shape := ⟨2, ![800000, 2]⟩
abbrev S800000x1 : Shape := ⟨2, ![800000, 1]⟩
abbrev S800000 : Shape := ⟨1, ![800000]⟩
abbrev S_ : Shape := ⟨0, ![]⟩
abbrev S1x64 : Shape := ⟨2, ![1, 64]⟩
abbrev S8000x64 : Shape := ⟨2, ![8000, 64]⟩
abbrev S8000x1 : Shape := ⟨2, ![8000, 1]⟩
abbrev S8000 : Shape := ⟨1, ![8000]⟩
abbrev S50000 : Shape := ⟨1, ![50000]⟩
abbrev S50000x1 : Shape := ⟨2, ![50000, 1]⟩

abbrev nBuf : Space → Nat
  | .hbm => 43
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S800000x2, .i32⟩
  | .hbm, ⟨8, _⟩ => ⟨S800000x1, .i32⟩
  | .hbm, ⟨9, _⟩ => ⟨S800000, .i32⟩
  | .hbm, ⟨10, _⟩ => ⟨S800000x1, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S800000x64, .f32⟩
  | .hbm, ⟨25, _⟩ => ⟨S800000x1, .f32⟩
  | .hbm, ⟨26, _⟩ => ⟨S800000, .f32⟩
  | .hbm, ⟨27, _⟩ => ⟨S_, .f32⟩
  | .hbm, ⟨28, _⟩ => ⟨S50000x64, .f32⟩
  | .hbm, ⟨29, _⟩ => ⟨S800000x1, .i32⟩
  | .hbm, ⟨30, _⟩ => ⟨S50000x64, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .i1⟩
  | .hbm, ⟨39, _⟩ => ⟨S50000x64, .f32⟩
  | .hbm, ⟨40, _⟩ => ⟨S50000x64, .f32⟩
  | .hbm, ⟨41, _⟩ => ⟨S50000x64, .i1⟩
  | .hbm, ⟨42, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S8000x64, .f32⟩
  | .local _ .vmem, ⟨10, _⟩ => ⟨S8000x64, .f32⟩
  | .local _ .vmem, ⟨11, _⟩ => ⟨S8000x1, .f32⟩
  | .local _ .vmem, ⟨12, _⟩ => ⟨S8000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S800000x2_S800000x1_0_1 : S800000x2.Slices ![0, 1] S800000x1
  shapeCasts_S800000x1_S800000 : S800000x1.ShapeCasts S800000
  slices_S800000x2_S800000x1_0_0 : S800000x2.Slices ![0, 0] S800000x1
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  transposes_S64x1_S1x64_1_0 : S64x1.Transposes [1, 0] S1x64
  inb_S8000x64_S8000x64_0_0 : ∀ a, (![0, 0] : Fin 2 → Nat) a + S8000x64.size a ≤ S8000x64.size a
  h_S8000x64 : 0 < S8000x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  shapeCasts_S8000x64_S8000x64 : S8000x64.ShapeCasts S8000x64
  reduces_S8000x64_S8000 : S8000x64.Reduces [1] S8000
  shapeCasts_S8000_S8000x1 : S8000.ShapeCasts S8000x1
  broadcasts_S8000x1_S8000x64 : S8000x1.Broadcasts S8000x64
  inb_S8000x1_S8000x1_0_0 : ∀ a, (![0, 0] : Fin 2 → Nat) a + S8000x1.size a ≤ S8000x1.size a
  h_S8000x1 : 0 < S8000x1.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .f32 = 32 ∨ (Rect.block (s := S800000x64) S8000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x1.size a ≤ S800000x1.size a
  hwx0_8 : ∀ i : grid0.Coords, EltTy.bits .f32 = 32 ∨ (Rect.block (s := S800000x1) S8000x1.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S8000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S8000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S64x64 : Shape := ⟨2, ![64, 64]⟩
abbrev S64 : Shape := ⟨1, ![64]⟩
abbrev S64x1 : Shape := ⟨2, ![64, 1]⟩
abbrev S800000x2 : Shape := ⟨2, ![800000, 2]⟩
abbrev S1x64 : Shape := ⟨2, ![1, 64]⟩
abbrev S800000x1 : Shape := ⟨2, ![800000, 1]⟩
abbrev S800000 : Shape := ⟨1, ![800000]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S800000x2, .i32⟩
  | .hbm, ⟨8, _⟩ => ⟨S800000x64, .f32⟩
  | .hbm, ⟨9, _⟩ => ⟨S1x64, .f32⟩
  | .hbm, ⟨10, _⟩ => ⟨S800000x64, .f32⟩
  | .hbm, ⟨11, _⟩ => ⟨S800000x64, .f32⟩
  | .hbm, ⟨12, _⟩ => ⟨S800000x64, .f32⟩
  | .hbm, ⟨13, _⟩ => ⟨S800000x64, .f32⟩
  | .hbm, ⟨14, _⟩ => ⟨S1x64, .f32⟩
  | .hbm, ⟨15, _⟩ => ⟨S800000x64, .f32⟩
  | .hbm, ⟨16, _⟩ => ⟨S800000x64, .f32⟩
  | .hbm, ⟨17, _⟩ => ⟨S800000x1, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x64, .f32⟩
  | .hbm, ⟨29, _⟩ => ⟨S800000x1, .f32⟩
  | .hbm, ⟨30, _⟩ => ⟨S800000x1, .f32⟩
  | .hbm, ⟨31, _⟩ => ⟨S800000x1, .i32⟩
  | .hbm, ⟨32, _⟩ => ⟨S800000, .i32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .i1⟩
  | .hbm, ⟨47, _⟩ => ⟨S50000x64, .f32⟩
  | .hbm, ⟨48, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  slices_S800000x2_S800000x1_0_1 : S800000x2.Slices ![0, 1] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_0 : S800000x2.Slices ![0, 0] S800000x1
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  dot_S800000x64_S64x1_S800000x1_1_0_0_1_n_n_wf : DotDims.WF S800000x64 S64x1 S800000x1 [1] [0] [0] [1] [] []
  scatter_S50000x64_S800000x1_S800000x64_1_0_0_1_wf : ScatterDims.WF S50000x64 S800000x1 S800000x64 [1] [0] [0] 1

variable [Facts₀]

def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.EdgeFilter.lean ====
/-
  ONE EDGE OF A CONTINUOUS-FILTER CONVOLUTION WITH EDGE ATTENTION, as functions of the edge's two rows.

  An edge has a row x of 64 features and the row g of 64 embeddings gathered from its source node. A two-layer filter
  network turns the features into a filter row: hidden k = tanh (Σ_j x j · W1 j k + b1 k), filter c = Σ_k hidden k · W2 k c
  + b2 c. The edge's message is the gathered row times the filter, entry by entry; its attention weight is the exponential
  of the message contracted with the coefficient vector, one number per edge; the weighted message is the message times
  that weight. Everything is on the extended reals with the exact operations; the sums are over the 64 coordinates.

  Stated over rows (functions of a coordinate) so that a block of 8000 edges held in a staging buffer and the whole array
  of 800000 edges are the same functions of different rows.
-/
import Idealize.ShloMosaic.PureOps.Ideal
import Idealize.ShloMosaic.Lib.ValueIdx

noncomputable section

namespace Cert.EdgeFilter

open Idealize.ShloMosaic Idealize.ShloMosaic.ValueIdx

/-- The first layer at hidden coordinate k. -/
def hidden (x : Fin 64 → EReal) (W1 : Fin 64 → Fin 64 → EReal) (b1 : Fin 64 → EReal) (k : Fin 64) : EReal :=
  Ideal.tanh ((∑ j : Fin 64, x j * W1 j k) + b1 k)

/-- The filter at coordinate c. -/
def filt (x : Fin 64 → EReal) (W1 : Fin 64 → Fin 64 → EReal) (b1 : Fin 64 → EReal) (W2 : Fin 64 → Fin 64 → EReal)
    (b2 : Fin 64 → EReal) (c : Fin 64) : EReal :=
  (∑ k : Fin 64, hidden x W1 b1 k * W2 k c) + b2 c

/-- The message at coordinate c: the gathered embedding times the filter. -/
def msg (g x : Fin 64 → EReal) (W1 : Fin 64 → Fin 64 → EReal) (b1 : Fin 64 → EReal) (W2 : Fin 64 → Fin 64 → EReal)
    (b2 : Fin 64 → EReal) (c : Fin 64) : EReal :=
  g c * filt x W1 b1 W2 b2 c

/-- The edge's attention weight: exp of the message contracted with the coefficients. -/
def weight (g x : Fin 64 → EReal) (W1 : Fin 64 → Fin 64 → EReal) (b1 : Fin 64 → EReal) (W2 : Fin 64 → Fin 64 → EReal)
    (b2 coef : Fin 64 → EReal) : EReal :=
  Ideal.exp (∑ c : Fin 64, msg g x W1 b1 W2 b2 c * coef c)

/-! ## Over the whole arrays -/

abbrev SEC : Shape := ⟨2, ![800000, 64]⟩
abbrev SE1 : Shape := ⟨2, ![800000, 1]⟩
abbrev SCC : Shape := ⟨2, ![64, 64]⟩
abbrev SC : Shape := ⟨1, ![64]⟩
abbrev SC1 : Shape := ⟨2, ![64, 1]⟩

section
variable (edge gath : FVec Ideal SEC .f32) (W1 : FVec Ideal SCC .f32) (b1 : FVec Ideal SC .f32)
  (W2 : FVec Ideal SCC .f32) (b2 : FVec Ideal SC .f32) (coef : FVec Ideal SC1 .f32)

/-- Edge e's message at coordinate c, from the arrays. -/
def msgAt (e : Fin 800000) (c : Fin 64) : EReal :=
  msg (fun c => gath (ix2 e c)) (fun j => edge (ix2 e j)) (fun j k => W1 (ix2 j k)) (fun k => b1 (ix1 k))
    (fun k c => W2 (ix2 k c)) (fun c => b2 (ix1 c)) c

/-- Edge e's attention weight, from the arrays. -/
def weightAt (e : Fin 800000) : EReal :=
  weight (fun c => gath (ix2 e c)) (fun j => edge (ix2 e j)) (fun j k => W1 (ix2 j k)) (fun k => b1 (ix1 k))
    (fun k c => W2 (ix2 k c)) (fun c => b2 (ix1 c)) (fun c => coef (ix2 c (0 : Fin 1)))

/-- The weighted messages, one row per edge. -/
def weighted : FVec Ideal SEC .f32 := fun i => msgAt edge gath W1 b1 W2 b2 (i 0) (i 1) * weightAt edge gath W1 b1 W2 b2 coef (i 0)

/-- The attention weights, one per edge, as a column. -/
def weightCol : FVec Ideal SE1 .f32 := fun i => weightAt edge gath W1 b1 W2 b2 coef (i 0)

end

end Cert.EdgeFilter

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.KernelEdges.lean ====
/-
  WHAT THE KERNEL BODY STORES, READ AT AN EDGE OF ITS BLOCK.

  The body holds a block of 8000 edges: their feature rows v0 and gathered rows v18, with the two weight matrices v1, v2,
  the two bias rows v6, v14 and the coefficient row v21 (each a one-row matrix). It stores, per edge p of the block, the
  attention weight (a column) and the weighted message (a row): at (p, c) these are `EdgeFilter.weight` and
  `EdgeFilter.msg` · `EdgeFilter.weight` of the block's rows — a matrix product into zero is the sum over the contracted
  coordinate, a change of float format is the identity, a one-row matrix repeated down the block reads its one row, the sum
  along the row from zero is the sum over the row, and the column of weights repeated along the row reads the weight.
-/
import proofs.«158273_j61400852463921_2_alg».proof.Proof.Gen.KernelIdeal.Skeleton
import proofs.«158273_j61400852463921_2_alg».proof.Proof.EdgeFilter
import proofs.«158273_j61400852463921_2_alg».proof.Proof.LibPlainMatmul
import proofs.«158273_j61400852463921_2_alg».proof.Proof.LibLastAxisFolds
import proofs.«158273_j61400852463921_2_alg».proof.Proof.LibColumnLayout
import Idealize.ShloMosaic.Lib.ValueLayout
import Idealize.ShloMosaic.Lib.Pipeline.Value

noncomputable section

namespace Cert.KernelEdges

open Idealize.ShloMosaic Idealize.ShloMosaic.ValueIdx Cert.KernelIdeal Cert.KernelIdeal.Gen Cert.EdgeFilter

variable [Cert.KernelIdeal.Facts]

section
variable (v0 v18 : FVec Ideal S8000x64 .f32) (v1 v2 : FVec Ideal S64x64 .f32) (v6 v14 v21 : FVec Ideal S1x64 .f32)

/-- The first layer over the block. -/
def hid : FVec Ideal S8000x64 .f32 :=
  tanh (addf (matmul dot_S8000x64_S64x64_S8000x64_1_0_0_1_n_n none (truncf .bf16 v0 bitsLt_bf16_f32) (truncf .bf16 v1 bitsLt_bf16_f32)
      (constant S8000x64 .f32 0x00000000#32))
    (broadcastTo S8000x64 (shapeCast S1x64 v6 shapeCasts_S1x64_S1x64) broadcasts_S1x64_S8000x64))

/-- The filter over the block. -/
def flt : FVec Ideal S8000x64 .f32 :=
  addf (matmul dot_S8000x64_S64x64_S8000x64_1_0_0_1_n_n none (truncf .bf16 (hid v0 v1 v6) bitsLt_bf16_f32) (truncf .bf16 v2 bitsLt_bf16_f32)
      (constant S8000x64 .f32 0x00000000#32))
    (broadcastTo S8000x64 (shapeCast S1x64 v14 shapeCasts_S1x64_S1x64) broadcasts_S1x64_S8000x64)

theorem hid_apply (p : Fin 8000) (k : Fin 64) :
    hid v0 v1 v6 (ix2 p k)
      = hidden (fun j => v0 (ix2 p j)) (fun j k => v1 (ix2 j k)) (fun k => v6 (ix2 (0 : Fin 1) k)) k := by
  have hm := Cert.Lib.PlainMatmul.matmul_zero_apply dot_S8000x64_S64x64_S8000x64_1_0_0_1_n_n rfl rfl rfl rfl rfl rfl none
    (truncf .bf16 v0 bitsLt_bf16_f32) (truncf .bf16 v1 bitsLt_bf16_f32) p k
  have hb := (broadcastTo_1b_ab_apply (shapeCast S1x64 v6 shapeCasts_S1x64_S1x64) broadcasts_S1x64_S8000x64 p k).trans
    (congrFun (shapeCast_self v6 shapeCasts_S1x64_S1x64) (ix2 (0 : Fin 1) k))
  exact congrArg Ideal.tanh (congrArg₂ (· + ·) hm hb)

theorem flt_apply (p : Fin 8000) (c : Fin 64) :
    flt v0 v1 v2 v6 v14 (ix2 p c)
      = filt (fun j => v0 (ix2 p j)) (fun j k => v1 (ix2 j k)) (fun k => v6 (ix2 (0 : Fin 1) k))
          (fun k c => v2 (ix2 k c)) (fun c => v14 (ix2 (0 : Fin 1) c)) c := by
  have hm := Cert.Lib.PlainMatmul.matmul_zero_apply dot_S8000x64_S64x64_S8000x64_1_0_0_1_n_n rfl rfl rfl rfl rfl rfl none
    (truncf .bf16 (hid v0 v1 v6) bitsLt_bf16_f32) (truncf .bf16 v2 bitsLt_bf16_f32) p c
  have hb := (broadcastTo_1b_ab_apply (shapeCast S1x64 v14 shapeCasts_S1x64_S1x64) broadcasts_S1x64_S8000x64 p c).trans
    (congrFun (shapeCast_self v14 shapeCasts_S1x64_S1x64) (ix2 (0 : Fin 1) c))
  have hs : (∑ k : Fin 64, truncf .bf16 (hid v0 v1 v6) bitsLt_bf16_f32 (ix2 p k) * truncf .bf16 v2 bitsLt_bf16_f32 (ix2 k c))
      = ∑ k : Fin 64, hidden (fun j => v0 (ix2 p j)) (fun j k => v1 (ix2 j k)) (fun k => v6 (ix2 (0 : Fin 1) k)) k * v2 (ix2 k c) :=
    Finset.sum_congr rfl fun k _ => congrArg (· * v2 (ix2 k c)) (hid_apply v0 v1 v6 p k)
  exact congrArg₂ (· + ·) (hm.trans hs) hb

/-- The message payload is the gathered block times the filter. -/
theorem pay1_eq : k0_pay1 (F := Ideal) v0 v1 v2 v6 v14 v18
    = mulf (shapeCast S8000x64 v18 shapeCasts_S8000x64_S8000x64) (flt v0 v1 v2 v6 v14) := rfl

theorem pay1_apply (p : Fin 8000) (c : Fin 64) :
    k0_pay1 (F := Ideal) v0 v1 v2 v6 v14 v18 (ix2 p c)
      = msg (fun c => v18 (ix2 p c)) (fun j => v0 (ix2 p j)) (fun j k => v1 (ix2 j k)) (fun k => v6 (ix2 (0 : Fin 1) k))
          (fun k c => v2 (ix2 k c)) (fun c => v14 (ix2 (0 : Fin 1) c)) c := by
  rw [pay1_eq, shapeCast_self]
  exact congrArg (v18 (ix2 p c) * ·) (flt_apply v0 v1 v2 v6 v14 p c)

/-- The stored weight column at edge p of the block. -/
theorem pay2_apply (p : Fin 8000) (u : Fin 1) :
    k0_pay2 (F := Ideal) v0 v1 v2 v6 v14 v18 v21 (ix2 p u)
      = weight (fun c => v18 (ix2 p c)) (fun j => v0 (ix2 p j)) (fun j k => v1 (ix2 j k)) (fun k => v6 (ix2 (0 : Fin 1) k))
          (fun k c => v2 (ix2 k c)) (fun c => v14 (ix2 (0 : Fin 1) c)) (fun c => v21 (ix2 (0 : Fin 1) c)) := by
  have hc := Idealize.ShloMosaic.ColumnLayout.shapeCast_a_a1_apply
    (multiReduction .add [1] S8000 (mulf (k0_pay1 (F := Ideal) v0 v1 v2 v6 v14 v18)
      (broadcastTo S8000x64 (shapeCast S1x64 v21 shapeCasts_S1x64_S1x64) broadcasts_S1x64_S8000x64)) 0x00000000#32
      reduces_S8000x64_S8000 (.inl rfl) rfl) shapeCasts_S8000_S8000x1 p u
  have hr := Cert.Lib.LastAxisFolds.rowsum_apply (mulf (k0_pay1 (F := Ideal) v0 v1 v2 v6 v14 v18)
      (broadcastTo S8000x64 (shapeCast S1x64 v21 shapeCasts_S1x64_S1x64) broadcasts_S1x64_S8000x64))
      reduces_S8000x64_S8000 (.inl rfl) rfl p
  have hs : (∑ c : Fin 64, mulf (k0_pay1 (F := Ideal) v0 v1 v2 v6 v14 v18)
        (broadcastTo S8000x64 (shapeCast S1x64 v21 shapeCasts_S1x64_S1x64) broadcasts_S1x64_S8000x64) (ix2 p c))
      = ∑ c : Fin 64, msg (fun c => v18 (ix2 p c)) (fun j => v0 (ix2 p j)) (fun j k => v1 (ix2 j k)) (fun k => v6 (ix2 (0 : Fin 1) k))
          (fun k c => v2 (ix2 k c)) (fun c => v14 (ix2 (0 : Fin 1) c)) c * v21 (ix2 (0 : Fin 1) c) :=
    Finset.sum_congr rfl fun c _ => by
      have hb := (broadcastTo_1b_ab_apply (shapeCast S1x64 v21 shapeCasts_S1x64_S1x64) broadcasts_S1x64_S8000x64 p c).trans
        (congrFun (shapeCast_self v21 shapeCasts_S1x64_S1x64) (ix2 (0 : Fin 1) c))
      exact congrArg₂ (· * ·) (pay1_apply v0 v18 v1 v2 v6 v14 p c) hb
  exact congrArg Ideal.exp (hc.trans (hr.trans hs))

/-- The stored weighted message at (p, c) of the block. -/
theorem pay3_apply (p : Fin 8000) (c : Fin 64) :
    k0_pay3 (F := Ideal) v0 v1 v2 v6 v14 v18 v21 (ix2 p c)
      = msg (fun c => v18 (ix2 p c)) (fun j => v0 (ix2 p j)) (fun j k => v1 (ix2 j k)) (fun k => v6 (ix2 (0 : Fin 1) k))
          (fun k c => v2 (ix2 k c)) (fun c => v14 (ix2 (0 : Fin 1) c)) c
        * weight (fun c => v18 (ix2 p c)) (fun j => v0 (ix2 p j)) (fun j k => v1 (ix2 j k)) (fun k => v6 (ix2 (0 : Fin 1) k))
          (fun k c => v2 (ix2 k c)) (fun c => v14 (ix2 (0 : Fin 1) c)) (fun c => v21 (ix2 (0 : Fin 1) c)) := by
  have hb := Idealize.ShloMosaic.ColumnLayout.broadcastTo_a1_ab_apply (k0_pay2 (F := Ideal) v0 v1 v2 v6 v14 v18 v21)
    broadcasts_S8000x1_S8000x64 p c
  exact congrArg₂ (· * ·) (pay1_apply v0 v18 v1 v2 v6 v14 p c) (hb.trans (pay2_apply v0 v18 v1 v2 v6 v14 v21 p 0))

end

end Cert.KernelEdges

end
-- ==== Proof.KernelArrays.lean ====
/-
  THE TWO ARRAYS THE PALLAS CALL LEAVES: the weighted messages [800000, 64] and the weights [800000, 1].

  Grid point t holds edges t·8000 … t·8000 + 7999: the blocks of the edge features and of the gathered rows at t are those
  rows of their arrays, the weight matrices are whole, the two bias rows are the bias vectors laid out as one-row matrices and
  the coefficient row is the coefficient column transposed. So what point t writes back is block t of the specification's
  `weighted` / `weightCol` of the argument arrays (and of the gathered array, kept as it is); the 100 blocks tile the
  800000 rows (row r is in block r / 8000), hence the arrays after the call are those two functions.
-/
import proofs.«158273_j61400852463921_2_alg».proof.Proof.Gen.KernelIdeal.Frame
import proofs.«158273_j61400852463921_2_alg».proof.Proof.KernelEdges
import Idealize.ShloMosaic.Lib.Pipeline.Value
import Idealize.ShloMosaic.Lib.ValueLayout
import Idealize.ShloMosaic.Lib.StableHlo.Run

set_option maxRecDepth 16384

noncomputable section

namespace Cert.KernelArrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeFilter Cert.KernelEdges

variable (m : (ℓ : Loc nD τ sig) → Buf (Elt Ideal) ℓ)

theorem hz : (![0, 0] : Fin 2 → Nat) = fun _ => 0 := funext fun a => by fin_cases a <;> rfl

/-- The printed index maps, decided over the grid: the edge-blocked windows are at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Edge p of the block at grid point t. -/
def edgeOf (t : Fin cfg0.N) (p : Fin 8000) : Fin 800000 :=
  ⟨t.val * 8000 + p.val, by
    have ht : t.val < 100 := lt_of_lt_of_eq t.isLt N_0
    have hp := p.isLt
    omega⟩

/-! ## The arrays the host prepared before the call -/

theorem V_bias1 (c : Dev nD) :
    (V m c main_v11 : S1x64.Idx → EReal) = shapeCast S1x64 (m ((c : Thread nD τ).loc main_arg3)) shapeCasts_S64_S1x64 := by
  show StableHlo.after hostOps0 (fun b => m (c, b)) (Proc.devRef .tc main_v11) = _
  after_results <;> rfl

theorem V_bias2 (c : Dev nD) :
    (V m c main_v12 : S1x64.Idx → EReal) = shapeCast S1x64 (m ((c : Thread nD τ).loc main_arg5)) shapeCasts_S64_S1x64 := by
  show StableHlo.after hostOps0 (fun b => m (c, b)) (Proc.devRef .tc main_v12) = _
  after_results <;> rfl

theorem V_coef (c : Dev nD) :
    (V m c main_v13 : S1x64.Idx → EReal)
      = transpose S1x64 [1, 0] (m ((c : Thread nD τ).loc main_arg6)) transposes_S64x1_S1x64_1_0 := by
  show StableHlo.after hostOps0 (fun b => m (c, b)) (Proc.devRef .tc main_v13) = _
  after_results <;> rfl

/-! ## The blocks at a grid point -/

theorem read_edge (c : Dev nD) (t : Fin cfg0.N) (p : Fin 8000) (j : Fin 64) :
    iblk m c 0 t (ix2 p j) = m ((c : Thread nD τ).loc main_arg1) (ix2 (edgeOf t p) j) := by
  obtain ⟨e0, e1, -⟩ := idx_facts t
  refine Eq.trans ?_ (congrFun (V_main_arg1 m c) (ix2 (edgeOf t p) j))
  show V m c main_arg1 (((cfg0.win 0).blk t).view.emb (ix2 p j)) = _
  refine congrArg (V m c main_arg1) (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 64 + 1 * j.val = j.val; rw [e1]; omega

theorem read_gathered (c : Dev nD) (t : Fin cfg0.N) (p : Fin 8000) (j : Fin 64) :
    iblk m c 1 t (ix2 p j) = V m c main_v10 (ix2 (edgeOf t p) j) := by
  obtain ⟨-, -, e0, e1, -⟩ := idx_facts t
  show V m c main_v10 (((cfg0.win 1).blk t).view.emb (ix2 p j)) = _
  refine congrArg (V m c main_v10) (funext fun a => Fin.ext ?_)
  match a with
  | ⟨0, _⟩ => show win0_1.index t (0 : Fin 2) * 8000 + 1 * p.val = t.val * 8000 + p.val; rw [e0]; omega
  | ⟨1, _⟩ => show win0_1.index t (1 : Fin 2) * 64 + 1 * j.val = j.val; rw [e1]; omega

theorem read_W1 (c : Dev nD) (t : Fin cfg0.N) (j k : Fin 64) :
    iblk m c 2 t (ix2 j k) = m ((c : Thread nD τ).loc main_arg2) (ix2 j k) := by
  obtain ⟨-, -, -, -, e0, e1, -⟩ := idx_facts t
  refine Eq.trans ?_ (congrFun (V_main_arg2 m c) (ix2 j k))
  show V m c main_arg2 (((cfg0.win 2).blk t).view.emb (ix2 j k)) = _
  refine congrArg (V m c main_arg2) (funext fun a => Fin.ext ?_)
  match a with
  | ⟨0, _⟩ => show win0_2.index t (0 : Fin 2) * 64 + 1 * j.val = j.val; rw [e0]; omega
  | ⟨1, _⟩ => show win0_2.index t (1 : Fin 2) * 64 + 1 * k.val = k.val; rw [e1]; omega

theorem read_W2 (c : Dev nD) (t : Fin cfg0.N) (j k : Fin 64) :
    iblk m c 4 t (ix2 j k) = m ((c : Thread nD τ).loc main_arg4) (ix2 j k) := by
  obtain ⟨-, -, -, -, -, -, -, -, e0, e1, -⟩ := idx_facts t
  refine Eq.trans ?_ (congrFun (V_main_arg4 m c) (ix2 j k))
  show V m c main_arg4 (((cfg0.win 4).blk t).view.emb (ix2 j k)) = _
  refine congrArg (V m c main_arg4) (funext fun a => Fin.ext ?_)
  match a with
  | ⟨0, _⟩ => show win0_4.index t (0 : Fin 2) * 64 + 1 * j.val = j.val; rw [e0]; omega
  | ⟨1, _⟩ => show win0_4.index t (1 : Fin 2) * 64 + 1 * k.val = k.val; rw [e1]; omega

theorem read_b1 (c : Dev nD) (t : Fin cfg0.N) (k : Fin 64) :
    iblk m c 3 t (ix2 (0 : Fin 1) k) = m ((c : Thread nD τ).loc main_arg3) (ix1 k) := by
  obtain ⟨-, -, -, -, -, -, e0, e1, -⟩ := idx_facts t
  have hV : V m c main_v11 (ix2 (0 : Fin 1) k) = m ((c : Thread nD τ).loc main_arg3) (ix1 k) :=
    (congrFun (V_bias1 m c) (ix2 (0 : Fin 1) k)).trans (shapeCast_a_1a_apply _ shapeCasts_S64_S1x64 0 k)
  refine Eq.trans ?_ hV
  show V m c main_v11 (((cfg0.win 3).blk t).view.emb (ix2 (0 : Fin 1) k)) = _
  refine congrArg (V m c main_v11) (funext fun a => Fin.ext ?_)
  match a with
  | ⟨0, _⟩ => show win0_3.index t (0 : Fin 2) * 1 + 1 * 0 = 0; rw [e0]
  | ⟨1, _⟩ => show win0_3.index t (1 : Fin 2) * 64 + 1 * k.val = k.val; rw [e1]; omega

theorem read_b2 (c : Dev nD) (t : Fin cfg0.N) (k : Fin 64) :
    iblk m c 5 t (ix2 (0 : Fin 1) k) = m ((c : Thread nD τ).loc main_arg5) (ix1 k) := by
  obtain ⟨-, -, -, -, -, -, -, -, -, -, e0, e1, -⟩ := idx_facts t
  have hV : V m c main_v12 (ix2 (0 : Fin 1) k) = m ((c : Thread nD τ).loc main_arg5) (ix1 k) :=
    (congrFun (V_bias2 m c) (ix2 (0 : Fin 1) k)).trans (shapeCast_a_1a_apply _ shapeCasts_S64_S1x64 0 k)
  refine Eq.trans ?_ hV
  show V m c main_v12 (((cfg0.win 5).blk t).view.emb (ix2 (0 : Fin 1) k)) = _
  refine congrArg (V m c main_v12) (funext fun a => Fin.ext ?_)
  match a with
  | ⟨0, _⟩ => show win0_5.index t (0 : Fin 2) * 1 + 1 * 0 = 0; rw [e0]
  | ⟨1, _⟩ => show win0_5.index t (1 : Fin 2) * 64 + 1 * k.val = k.val; rw [e1]; omega

theorem read_coef (c : Dev nD) (t : Fin cfg0.N) (k : Fin 64) :
    iblk m c 6 t (ix2 (0 : Fin 1) k) = m ((c : Thread nD τ).loc main_arg6) (ix2 k (0 : Fin 1)) := by
  obtain ⟨-, -, -, -, -, -, -, -, -, -, -, -, e0, e1, -⟩ := idx_facts t
  have hV : V m c main_v13 (ix2 (0 : Fin 1) k) = m ((c : Thread nD τ).loc main_arg6) (ix2 k (0 : Fin 1)) :=
    (congrFun (V_coef m c) (ix2 (0 : Fin 1) k)).trans (transpose_ix2_apply _ transposes_S64x1_S1x64_1_0 0 k)
  refine Eq.trans ?_ hV
  show V m c main_v13 (((cfg0.win 6).blk t).view.emb (ix2 (0 : Fin 1) k)) = _
  refine congrArg (V m c main_v13) (funext fun a => Fin.ext ?_)
  match a with
  | ⟨0, _⟩ => show win0_6.index t (0 : Fin 2) * 1 + 1 * 0 = 0; rw [e0]
  | ⟨1, _⟩ => show win0_6.index t (1 : Fin 2) * 64 + 1 * k.val = k.val; rw [e1]; omega

/-! ## The two arrays -/

/-- The weighted messages of the argument arrays, the gathered rows as the host left them. -/
def wm (c : Dev nD) : FVec Ideal SEC .f32 :=
  weighted (m ((c : Thread nD τ).loc main_arg1)) (V m c main_v10) (m ((c : Thread nD τ).loc main_arg2))
    (m ((c : Thread nD τ).loc main_arg3)) (m ((c : Thread nD τ).loc main_arg4)) (m ((c : Thread nD τ).loc main_arg5))
    (m ((c : Thread nD τ).loc main_arg6))

/-- The weights. -/
def wc (c : Dev nD) : FVec Ideal SE1 .f32 :=
  weightCol (m ((c : Thread nD τ).loc main_arg1)) (V m c main_v10) (m ((c : Thread nD τ).loc main_arg2))
    (m ((c : Thread nD τ).loc main_arg3)) (m ((c : Thread nD τ).loc main_arg4)) (m ((c : Thread nD τ).loc main_arg5))
    (m ((c : Thread nD τ).loc main_arg6))

/-- The rows of the block at t are the rows of the arrays at the block's edges. -/
theorem rows (c : Dev nD) (t : Fin cfg0.N) (p : Fin 8000) :
    (fun j => iblk m c 0 t (ix2 p j)) = (fun j => m ((c : Thread nD τ).loc main_arg1) (ix2 (edgeOf t p) j))
    ∧ (fun j => iblk m c 1 t (ix2 p j)) = (fun j => V m c main_v10 (ix2 (edgeOf t p) j))
    ∧ (fun j k => iblk m c 2 t (ix2 j k)) = (fun j k => m ((c : Thread nD τ).loc main_arg2) (ix2 j k))
    ∧ (fun k => iblk m c 3 t (ix2 (0 : Fin 1) k)) = (fun k => m ((c : Thread nD τ).loc main_arg3) (ix1 k))
    ∧ (fun j k => iblk m c 4 t (ix2 j k)) = (fun j k => m ((c : Thread nD τ).loc main_arg4) (ix2 j k))
    ∧ (fun k => iblk m c 5 t (ix2 (0 : Fin 1) k)) = (fun k => m ((c : Thread nD τ).loc main_arg5) (ix1 k))
    ∧ (fun k => iblk m c 6 t (ix2 (0 : Fin 1) k)) = (fun k => m ((c : Thread nD τ).loc main_arg6) (ix2 k (0 : Fin 1))) :=
  ⟨funext fun j => read_edge m c t p j, funext fun j => read_gathered m c t p j,
    funext fun j => funext fun k => read_W1 m c t j k, funext fun k => read_b1 m c t k,
    funext fun j => funext fun k => read_W2 m c t j k, funext fun k => read_b2 m c t k,
    funext fun k => read_coef m c t k⟩

/-- WHAT POINT t WRITES BACK through the message window is block t of the weighted messages. -/
theorem flushed_messages (c : Dev nD) (t : Fin cfg0.N) :
    (dats m 0 c).flushed 7 t = ((cfg0.win 7).blk t).view.read (Elt Ideal) (wm m c) := by
  show (cfg0.win 7).cut (grid0.coords t) ((dats m 0 c).after 7 t) = _
  rw [after0_7]
  unfold out0_7
  rw [View.canon_unit_zero hz]
  simp only [View.ld_unit_zero (S := S8000x64) hz, View.ld_unit_zero (S := S64x64) hz, View.ld_unit_zero (S := S1x64) hz]
  refine funext fun (j : S8000x64.Idx) => ?_
  obtain ⟨p, q, rfl⟩ : ∃ (p : Fin 8000) (q : Fin 64), j = ix2 p q := ⟨j 0, j 1, eq_ix2 j⟩
  obtain ⟨-, -, -, -, -, -, -, -, -, -, -, -, -, -, e0, e1, -⟩ := idx_facts t
  have hemb : ((cfg0.win 7).blk t).view.emb (ix2 p q) = ix2 (edgeOf t p) q := funext fun a => Fin.ext (by
    match a with
    | ⟨0, _⟩ => show win0_7.index t (0 : Fin 2) * 8000 + 1 * p.val = t.val * 8000 + p.val; rw [e0]; omega
    | ⟨1, _⟩ => show win0_7.index t (1 : Fin 2) * 64 + 1 * q.val = q.val; rw [e1]; omega)
  show _ = wm m c (((cfg0.win 7).blk t).view.emb (ix2 p q))
  rw [hemb]
  refine (pay3_apply (iblk m c 0 t) (iblk m c 1 t) (iblk m c 2 t) (iblk m c 4 t) (iblk m c 3 t) (iblk m c 5 t) (iblk m c 6 t) p q).trans ?_
  obtain ⟨r0, r1, r2, r3, r4, r5, r6⟩ := rows m c t p
  rw [r0, r1, r2, r3, r4, r5, r6]
  rfl

/-- WHAT POINT t WRITES BACK through the weight window is block t of the weights. -/
theorem flushed_weights (c : Dev nD) (t : Fin cfg0.N) :
    (dats m 0 c).flushed 8 t = ((cfg0.win 8).blk t).view.read (Elt Ideal) (wc m c) := by
  show (cfg0.win 8).cut (grid0.coords t) ((dats m 0 c).after 8 t) = _
  rw [after0_8]
  unfold out0_8
  rw [View.canon_unit_zero hz]
  simp only [View.ld_unit_zero (S := S8000x64) hz, View.ld_unit_zero (S := S64x64) hz, View.ld_unit_zero (S := S1x64) hz]
  refine funext fun (j : S8000x1.Idx) => ?_
  obtain ⟨p, u, rfl⟩ : ∃ (p : Fin 8000) (u : Fin 1), j = ix2 p u := ⟨j 0, j 1, eq_ix2 j⟩
  obtain ⟨-, -, -, -, -, -, -, -, -, -, -, -, -, -, -, -, e0, e1⟩ := idx_facts t
  have hemb : ((cfg0.win 8).blk t).view.emb (ix2 p u) = ix2 (edgeOf t p) u := funext fun a => Fin.ext (by
    match a with
    | ⟨0, _⟩ => show win0_8.index t (0 : Fin 2) * 8000 + 1 * p.val = t.val * 8000 + p.val; rw [e0]; omega
    | ⟨1, _⟩ => show win0_8.index t (1 : Fin 2) * 1 + 1 * u.val = u.val; rw [e1]; omega)
  show _ = wc m c (((cfg0.win 8).blk t).view.emb (ix2 p u))
  rw [hemb]
  refine (pay2_apply (iblk m c 0 t) (iblk m c 1 t) (iblk m c 2 t) (iblk m c 4 t) (iblk m c 3 t) (iblk m c 5 t) (iblk m c 6 t) p u).trans ?_
  obtain ⟨r0, r1, r2, r3, r4, r5, r6⟩ := rows m c t p
  rw [r0, r1, r2, r3, r4, r5, r6]
  rfl

/-! ## The blocks tile the rows -/

theorem mem_block_messages (t : Fin cfg0.N) (i : S800000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v14_0).slice (win0_7.rect t)).set ↔ _
  rw [View.set_slice_whole, Rect.mem_set_unit]
  exact Iff.rfl

theorem mem_block_weights (t : Fin cfg0.N) (i : S800000x1.Idx) :
    i ∈ ((cfg0.win 8).blk t).view.set ↔ ∀ a : Fin 2, win0_8.index t a * S8000x1.size a ≤ (i a).val
      ∧ (i a).val < win0_8.index t a * S8000x1.size a + S8000x1.size a := by
  show i ∈ ((View.whole main_v14_1).slice (win0_8.rect t)).set ↔ _
  rw [View.set_slice_whole, Rect.mem_set_unit]
  exact Iff.rfl

theorem cover_messages (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  obtain ⟨t, ht⟩ : ∃ t : Fin cfg0.N, t.val = (i 0).val / 8000 :=
    ⟨⟨(i 0).val / 8000, lt_of_lt_of_eq (by omega : (i 0).val / 8000 < 100) N_0.symm⟩, rfl⟩
  obtain ⟨-, -, -, -, -, -, -, -, -, -, -, -, -, -, e0, e1, -⟩ := idx_facts t
  refine ⟨t, flush0_7 t, ?_⟩
  rw [mem_block_messages]
  intro a
  match a with
  | ⟨0, _⟩ =>
    show win0_7.index t (0 : Fin 2) * 8000 ≤ (i 0).val ∧ (i 0).val < win0_7.index t (0 : Fin 2) * 8000 + 8000
    rw [e0, ht]; omega
  | ⟨1, _⟩ =>
    show win0_7.index t (1 : Fin 2) * 64 ≤ (i 1).val ∧ (i 1).val < win0_7.index t (1 : Fin 2) * 64 + 64
    rw [e1]; omega

theorem cover_weights (i : S800000x1.Idx) :
    ∃ t : Fin cfg0.N, (cfg0.win 8).flush t = true ∧ i ∈ ((cfg0.win 8).blk t).view.set := by
  have hi0 : (i 0).val < 800000 := (i 0).isLt
  have hi1 : (i 1).val < 1 := (i 1).isLt
  obtain ⟨t, ht⟩ : ∃ t : Fin cfg0.N, t.val = (i 0).val / 8000 :=
    ⟨⟨(i 0).val / 8000, lt_of_lt_of_eq (by omega : (i 0).val / 8000 < 100) N_0.symm⟩, rfl⟩
  obtain ⟨-, -, -, -, -, -, -, -, -, -, -, -, -, -, -, -, e0, e1⟩ := idx_facts t
  refine ⟨t, flush0_8 t, ?_⟩
  rw [mem_block_weights]
  intro a
  match a with
  | ⟨0, _⟩ =>
    show win0_8.index t (0 : Fin 2) * 8000 ≤ (i 0).val ∧ (i 0).val < win0_8.index t (0 : Fin 2) * 8000 + 8000
    rw [e0, ht]; omega
  | ⟨1, _⟩ =>
    show win0_8.index t (1 : Fin 2) * 1 ≤ (i 1).val ∧ (i 1).val < win0_8.index t (1 : Fin 2) * 1 + 1
    rw [e1]; omega

/-- THE MESSAGE ARRAY after the call. -/
theorem final_messages (c : Dev nD) : (dats m 0 c).arrAt 7 cfg0.N = wm m c :=
  (dats m 0 c).arrAt_eq_of_cover 7 (wm m c) (fun t _ => flushed_messages m c t) cover_messages

/-- THE WEIGHT ARRAY after the call. -/
theorem final_weights (c : Dev nD) : (dats m 0 c).arrAt 8 cfg0.N = wc m c :=
  (dats m 0 c).arrAt_eq_of_cover 8 (wc m c) (fun t _ => flushed_weights m c t) cover_weights

end Cert.KernelArrays

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«158273_j61400852463921_2_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.LibScatterEdges.lean ====
/-
  A ROW SCATTER-ADD AS A SUM OVER EDGES, and the linearity of the aggregation in the features.

  A row scatter into [N, C] at scatter indices [E, 1] sends update (e, c) to (idx (e, 0), c) exactly when the start
  index, read signed, is a row of the matrix. So the updates that land on (r, q) are the (e, q) with idx (e, 0) = r, and
  the sum the scatter-add forms at (r, q) is a sum over those EDGES e, the same set of edges for every column q and every
  number of columns C. That is what lets an aggregation of C = 3 raw features followed by a dense layer be compared
  with the aggregation of the C = 128 transformed features: over the reals (all entries finite) both are the double sum
  over the edges into r and the contracted coordinate.
-/
import proofs.«158273_j61400852463921_2_alg».proof.Proof.LibGraphRows

namespace Cert.Lib.ScatterEdges

open Idealize.ShloMosaic Idealize.ShloMosaic.ValueIdx

/-- The row scatter's dimension numbers as a literal record. -/
abbrev rowSc (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
theorem rowSc_hits {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N)
    (h : (idx (ix2 e (0 : Fin 1))).toInt = (r.val : ℤ)) :
    (rowSc N E C wf).resultIdx? (ix2 e c) idx = some (ix2 r c) := by
  have hs0 : (rowSc N E C wf).start (ix2 e c) idx 0 = (idx (ix2 e (0 : Fin 1))).toInt := by
    unfold ScatterDims.start
    rw [dif_pos (List.mem_singleton.mpr rfl)]
    have hsi : (rowSc N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowSc N E C wf).window (ix2 e c) 0 = 0 := by
    unfold ScatterDims.window
    rw [dif_neg (by simp [ScatterDims.sKept, Shape.kept])]
  have hs1 : (rowSc N E C wf).start (ix2 e c) idx 1 = 0 := by
    unfold ScatterDims.start
    rw [dif_neg (show ¬ (1 : Fin 2) ∈ [(0 : Fin 2)] by decide)]
  have hw1 : (rowSc N E C wf).window (ix2 e c) 1 = c.val := by
    unfold ScatterDims.window
    rw [dif_pos (by simp [ScatterDims.sKept, Shape.kept])]
    rfl
  have hr := r.isLt
  have hc := c.isLt
  have hb : ∀ a, 0 ≤ (rowSc N E C wf).start (ix2 e c) idx a + ((rowSc N E C wf).window (ix2 e c) a : ℕ)
      ∧ (rowSc N E C wf).start (ix2 e c) idx a + ((rowSc N E C wf).window (ix2 e c) a : ℕ) < (⟨2, ![N, C]⟩ : Shape).size a := by
    refine Fin.forall_fin_two.mpr ⟨?_, ?_⟩
    · rw [hs0, hw0, h]
      show (0 : ℤ) ≤ (r.val : ℤ) + ((0 : ℕ) : ℤ) ∧ (r.val : ℤ) + ((0 : ℕ) : ℤ) < ((N : ℕ) : ℤ)
      omega
    · rw [hs1, hw1]
      show (0 : ℤ) ≤ 0 + ((c.val : ℕ) : ℤ) ∧ (0 : ℤ) + ((c.val : ℕ) : ℤ) < ((C : ℕ) : ℤ)
      omega
  unfold ScatterDims.resultIdx?
  rw [dif_pos hb]
  refine congrArg some (funext fun a => Fin.ext ?_)
  revert a
  refine Fin.forall_fin_two.mpr ⟨?_, ?_⟩
  · show ((rowSc N E C wf).start (ix2 e c) idx 0 + ((rowSc N E C wf).window (ix2 e c) 0 : ℕ)).toNat = r.val
    rw [hs0, hw0, h]; simp
  · show ((rowSc N E C wf).start (ix2 e c) idx 1 + ((rowSc N E C wf).window (ix2 e c) 1 : ℕ)).toNat = c.val
    rw [hs1, hw1]; simp

/-- An update (e, c) whose start index, read signed, is the row r lands at (r, c). -/
theorem scatterRows_hits {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (r : Fin N)
    (h : (idx (ix2 e (0 : Fin 1))).toInt = (r.val : ℤ)) :
    d.resultIdx? (ix2 e c) idx = some (ix2 r c) := by
  obtain ⟨uw, iw, sd, iv, wf⟩ := d
  dsimp only at h1 h2 h3 h4
  subst h1 h2 h3 h4
  exact rowSc_hits wf idx e c r h

/-- The edges whose destination, read signed, is the row r. -/
def into {N E w : ℕ} (idx : IVec ⟨2, ![E, 1]⟩ w) (r : Fin N) : Finset (Fin E) :=
  Finset.univ.filter fun e => (idx (ix2 e (0 : Fin 1))).toInt = (r.val : ℤ)

/-- The sum a row scatter-add forms at (r, q) is the sum over the edges into r of the update at (e, q). -/
theorem sum_lands {N E C w : ℕ} {M : Type*} [AddCommMonoid M]
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (r : Fin N) (q : Fin C)
    (F : (⟨2, ![E, C]⟩ : Shape).Idx → M) :
    ∑ j ∈ Finset.univ.filter (fun j => d.resultIdx? j idx = some (ix2 r q)), F j
      = ∑ e ∈ into idx r, F (ix2 e q) := by
  have key : ∀ j : (⟨2, ![E, C]⟩ : Shape).Idx, d.resultIdx? j idx = some (ix2 r q) →
      (idx (ix2 (j 0) (0 : Fin 1))).toInt = (r.val : ℤ) ∧ j = ix2 (j 0) q := by
    intro j hj
    have hj' := hj
    rw [eq_ix2 j] at hj'
    obtain ⟨hrow, hcol⟩ := Cert.Lib.GraphRows.scatterRows_lands d h1 h2 h3 h4 idx (j 0) (j 1) (ix2 r q) hj'
    refine ⟨hrow, ?_⟩
    have hq : j 1 = q := Fin.ext hcol.symm
    exact (eq_ix2 j).trans (congrArg (fun z : Fin C => (ix2 (j 0) z : (⟨2, ![E, C]⟩ : Shape).Idx)) hq)
  refine Finset.sum_bij' (fun j _ => j 0) (fun e _ => ix2 e q) ?_ ?_ ?_ ?_ ?_
  · intro j hj
    exact Finset.mem_filter.mpr ⟨Finset.mem_univ _, (key j (Finset.mem_filter.mp hj).2).1⟩
  · intro e he
    exact Finset.mem_filter.mpr ⟨Finset.mem_univ _, scatterRows_hits d h1 h2 h3 h4 idx e q r (Finset.mem_filter.mp he).2⟩
  · intro j hj
    exact ((key j (Finset.mem_filter.mp hj).2).2).symm
  · intro e _
    rfl
  · intro j hj
    exact congrArg F (key j (Finset.mem_filter.mp hj).2).2

/-! ## Linearity over the reals -/

/-- The coercion of the reals into the extended reals commutes with finite sums. -/
theorem coe_sum {ι : Type*} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- LINEARITY OF THE AGGREGATION. With real features x (per edge, per raw coordinate j), real weights W, a real
    normalisation a per edge and d of the destination: aggregating the raw coordinates (each edge's scaled by its a),
    scaling the sum by d, and THEN contracting with the weights is aggregating the contracted rows each times a e * d. -/
theorem aggregate_then_transform {ι κ : Type*} [Fintype κ] (S : Finset ι) (x : ι → κ → ℝ) (a : ι → ℝ) (W : κ → ℝ) (d : ℝ) :
    ∑ j : κ, ((d : EReal) * (0 + ∑ e ∈ S, (x e j : EReal) * (a e : EReal))) * (W j : EReal)
      = 0 + ∑ e ∈ S, (∑ j : κ, (x e j : EReal) * (W j : EReal)) * ((a e : EReal) * (d : EReal)) := by
  simp only [zero_add, ← EReal.coe_mul, ← coe_sum]
  refine congrArg _ ?_
  simp only [Finset.mul_sum, Finset.sum_mul]
  rw [Finset.sum_comm]
  refine Finset.sum_congr rfl fun e _ => Finset.sum_congr rfl fun j _ => ?_
  ring

end Cert.Lib.ScatterEdges
-- ==== Proof.LibScatterVector.lean ====
/-
  A SCATTER-ADD OF ONE NUMBER PER EDGE INTO A VECTOR, AS A SUM OVER EDGES, and its comparison with a row scatter.

  A scatter into a vector [N] at scatter indices [E, 1] from updates [E] sends update e to position idx (e, 0) exactly
  when the start index, read signed, is a position of the vector, and drops it otherwise. So the updates that land on r
  are the e with idx (e, 0) = r: the same set of edges (`ScatterEdges.into`) whose entries a row scatter into [N, C] at
  the same indices sums at (r, q), whatever the column q. Hence scattering one number per edge into [N] gives at r what
  scattering that number, repeated along the edge's row, into [N, C] gives at (r, q), for every q (`vector_eq_rows`):
  a per-node total may be formed once and repeated along the row, or formed in every column.
-/
import proofs.«158273_j61400852463921_2_alg».proof.Proof.LibScatterEdges

namespace Cert.Lib.ScatterVector

open Idealize.ShloMosaic Idealize.ShloMosaic.ValueIdx Cert.Lib.ScatterEdges

/-- The vector scatter's dimension numbers as a literal record. -/
abbrev vecSc (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

set_option backward.isDefEq.respectTransparency.types false in
/-- The start of update e on the vector's one axis is its start index, read signed. -/
theorem vecSc_start {N E w : ℕ} (wf : ScatterDims.WF ⟨1, ![N]⟩ ⟨2, ![E, 1]⟩ ⟨1, ![E]⟩ [] [0] [0] 1)
    (idx : IVec ⟨2, ![E, 1]⟩ w) (e : Fin E) :
    (vecSc N E wf).start (ix1 e) idx 0 = (idx (ix2 e (0 : Fin 1))).toInt := by
  unfold ScatterDims.start
  rw [dif_pos (List.mem_singleton.mpr rfl)]
  have hsi : (vecSc N E wf).siIdx (ix1 e)
      ⟨List.idxOf (0 : Fin 1) [(0 : Fin 1)], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

set_option backward.isDefEq.respectTransparency.types false in
/-- The one axis is an inserted one: an update has no window coordinate on it. -/
theorem vecSc_window {N E : ℕ} (wf : ScatterDims.WF ⟨1, ![N]⟩ ⟨2, ![E, 1]⟩ ⟨1, ![E]⟩ [] [0] [0] 1) (e : Fin E) :
    (vecSc N E wf).window (ix1 e) 0 = 0 := by
  unfold ScatterDims.window
  rw [dif_neg (by simp [ScatterDims.sKept, Shape.kept])]

set_option backward.isDefEq.respectTransparency.types false in
theorem vecSc_iff {N E w : ℕ} (wf : ScatterDims.WF ⟨1, ![N]⟩ ⟨2, ![E, 1]⟩ ⟨1, ![E]⟩ [] [0] [0] 1)
    (idx : IVec ⟨2, ![E, 1]⟩ w) (e : Fin E) (r : Fin N) :
    (vecSc N E wf).resultIdx? (ix1 e) idx = some (ix1 r) ↔ (idx (ix2 e (0 : Fin 1))).toInt = (r.val : ℤ) := by
  have hs := vecSc_start wf idx e
  have hw := vecSc_window wf e
  constructor
  · intro h
    unfold ScatterDims.resultIdx? at h
    split at h
    · rename_i hb
      have hi := Option.some.inj h
      have e0 : ((vecSc N E wf).start (ix1 e) idx 0 + ((vecSc N E wf).window (ix1 e) 0 : ℕ)).toNat = r.val :=
        congrArg Fin.val (congrFun hi 0)
      have hb0 := (hb 0).1
      rw [hs, hw] at e0 hb0
      simp only [Nat.cast_zero, add_zero] at e0 hb0
      rw [← e0]; exact (Int.toNat_of_nonneg hb0).symm
    · exact absurd h (by simp)
  · intro h
    have hr := r.isLt
    have hb : ∀ a, 0 ≤ (vecSc N E wf).start (ix1 e) idx a + ((vecSc N E wf).window (ix1 e) a : ℕ)
        ∧ (vecSc N E wf).start (ix1 e) idx a + ((vecSc N E wf).window (ix1 e) a : ℕ) < (⟨1, ![N]⟩ : Shape).size a := by
      refine Fin.forall_fin_one.mpr ?_
      rw [hs, hw, h]
      show (0 : ℤ) ≤ (r.val : ℤ) + ((0 : ℕ) : ℤ) ∧ (r.val : ℤ) + ((0 : ℕ) : ℤ) < ((N : ℕ) : ℤ)
      omega
    unfold ScatterDims.resultIdx?
    rw [dif_pos hb]
    refine congrArg some (funext fun a => Fin.ext ?_)
    revert a
    refine Fin.forall_fin_one.mpr ?_
    show ((vecSc N E wf).start (ix1 e) idx 0 + ((vecSc N E wf).window (ix1 e) 0 : ℕ)).toNat = r.val
    rw [hs, hw, h]; simp

/-- Update e of a scatter into a vector lands on r exactly when its start index, read signed, is r. -/
theorem scatterVec_iff {N E w : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (r : Fin N) :
    d.resultIdx? (ix1 e) idx = some (ix1 r) ↔ (idx (ix2 e (0 : Fin 1))).toInt = (r.val : ℤ) := by
  obtain ⟨uw, iw, sd, iv, wf⟩ := d
  dsimp only at h1 h2 h3 h4
  subst h1 h2 h3 h4
  exact vecSc_iff wf idx e r

/-- The sum a scatter-add into a vector forms at r is the sum over the edges into r of the update at e. -/
theorem sum_lands {N E w : ℕ} {M : Type*} [AddCommMonoid M] (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (r : Fin N) (F : (⟨1, ![E]⟩ : Shape).Idx → M) :
    ∑ j ∈ Finset.univ.filter (fun j => d.resultIdx? j idx = some (ix1 r)), F j = ∑ e ∈ into idx r, F (ix1 e) := by
  refine Finset.sum_bij' (fun j _ => j 0) (fun e _ => ix1 e) ?_ ?_ ?_ ?_ ?_
  · intro j hj
    have hl := (Finset.mem_filter.mp hj).2
    rw [eq_ix1 j] at hl
    exact Finset.mem_filter.mpr ⟨Finset.mem_univ _, (scatterVec_iff d h1 h2 h3 h4 idx (j 0) r).mp hl⟩
  · intro e he
    exact Finset.mem_filter.mpr ⟨Finset.mem_univ _, (scatterVec_iff d h1 h2 h3 h4 idx e r).mpr (Finset.mem_filter.mp he).2⟩
  · intro j _
    exact (eq_ix1 j).symm
  · intro e _
    rfl
  · intro j _
    exact congrArg F (eq_ix1 j)

/-- ONE NUMBER PER EDGE, TOTALLED PER NODE: scattered into the vector [N] it gives at r what, repeated along the
    edge's row and scattered into [N, C] at the same indices, it gives at (r, q), for every column q — when the two
    scatters start from operands that agree there and the updates agree edge by edge. -/
theorem vector_eq_rows {N E C w : ℕ} {φ : FTy}
    (d1 : ScatterDims ⟨1, ![N]⟩ ⟨2, ![E, 1]⟩ ⟨1, ![E]⟩)
    (a1 : d1.updateWindowDims = []) (a2 : d1.insertedWindowDims = [0]) (a3 : d1.scatterDimsToOperandDims = [0])
    (a4 : d1.indexVectorDim = 1)
    (d2 : ScatterDims ⟨2, ![N, C]⟩ ⟨2, ![E, 1]⟩ ⟨2, ![E, C]⟩)
    (b1 : d2.updateWindowDims = [1]) (b2 : d2.insertedWindowDims = [0]) (b3 : d2.scatterDimsToOperandDims = [0])
    (b4 : d2.indexVectorDim = 1)
    (x1 : FVec Ideal ⟨1, ![N]⟩ φ) (x2 : FVec Ideal ⟨2, ![N, C]⟩ φ) (idx : IVec ⟨2, ![E, 1]⟩ w)
    (u1 : FVec Ideal ⟨1, ![E]⟩ φ) (u2 : FVec Ideal ⟨2, ![E, C]⟩ φ) (r : Fin N) (q : Fin C)
    (hx : x1 (ix1 r) = x2 (ix2 r q)) (hu : ∀ e : Fin E, u1 (ix1 e) = u2 (ix2 e q)) :
    Host.scatterAdd d1 x1 idx u1 (ix1 r) = Host.scatterAdd d2 x2 idx u2 (ix2 r q) := by
  rw [Cert.Lib.GraphRows.scatterAdd_apply, Cert.Lib.GraphRows.scatterAdd_apply,
    sum_lands d1 a1 a2 a3 a4 idx r u1, Cert.Lib.ScatterEdges.sum_lands d2 b1 b2 b3 b4 idx r q u2, hx]
  exact congrArg _ (Finset.sum_congr rfl fun e _ => hu e)

end Cert.Lib.ScatterVector
-- ==== Proof.LibColumnVector.lean ====
/-
  A COLUMN READ BACK AS A VECTOR. A one-column matrix `[a, 1]` reshaped to the vector `[a]` reads, at `i`, the
  column's entry in row `i`: the two row-major positions are `i * 1 + 0` and `i`. For any element type and any
  extent; the inverse of laying a vector down a column.
-/
import Idealize.ShloMosaic.Lib.Pipeline.Value
import Idealize.ShloMosaic.Lib.ValueIdx

namespace Cert.Lib.ColumnVector

open Idealize.ShloMosaic Idealize.ShloMosaic.ValueIdx

/-- A column `[a, 1]` cast to the vector `[a]` reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnVector
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.NodeNormalise.lean ====
/-
  THE NORMALISATION OF A NODE'S AGGREGATE BY THE TOTAL WEIGHT OF ITS INCOMING EDGES, two ways.

  Every edge e carries one weight a(e) (a column [E, 1]) and a row of numbers; node n's aggregate row num(n, ·) is divided
  by the total weight den(n) of the edges into n where that total is positive, and kept where it is not.
  The total may be formed ONCE per node — the weights, as a vector [E], scatter-added into a vector [N], laid down a column
  [N, 1], compared with zero there, and the column and the comparison repeated along the row — or in EVERY column — the
  weights repeated along each edge's row, scatter-added into [N, C], compared and divided entry by entry. The two agree
  at every (n, c): the edges that land on (n, c) are the edges into n, whatever c, so both totals are zero plus the sum of
  a(e) over those edges; the comparison and the quotient are then the same numbers.
-/
import proofs.«158273_j61400852463921_2_alg».proof.Proof.LibScatterVector
import proofs.«158273_j61400852463921_2_alg».proof.Proof.LibColumnVector
import proofs.«158273_j61400852463921_2_alg».proof.Proof.LibHostColumns

noncomputable section

namespace Cert.NodeNormalise

open Idealize.ShloMosaic Idealize.ShloMosaic.ValueIdx

abbrev SN : Shape := ⟨1, ![50000]⟩
abbrev SN1 : Shape := ⟨2, ![50000, 1]⟩
abbrev SNC : Shape := ⟨2, ![50000, 64]⟩
abbrev SE : Shape := ⟨1, ![800000]⟩
abbrev SE1 : Shape := ⟨2, ![800000, 1]⟩
abbrev SEC : Shape := ⟨2, ![800000, 64]⟩
abbrev S0 : Shape := ⟨0, ![]⟩

/-- The total weight per node formed once (into a vector) is, at n, the total formed in column c (into a matrix, from the
    weights repeated along each edge's row), for every c. -/
theorem total_once_eq_total_per_column
    (d1 : ScatterDims SN SE1 SE)
    (a1 : d1.updateWindowDims = []) (a2 : d1.insertedWindowDims = [0]) (a3 : d1.scatterDimsToOperandDims = [0])
    (a4 : d1.indexVectorDim = 1)
    (d2 : ScatterDims SNC SE1 SEC)
    (b1 : d2.updateWindowDims = [1]) (b2 : d2.insertedWindowDims = [0]) (b3 : d2.scatterDimsToOperandDims = [0])
    (b4 : d2.indexVectorDim = 1)
    (hz1 : S0.BroadcastsInDim SN ![]) (hz2 : S0.BroadcastsInDim SNC ![])
    (hsc : SE1.ShapeCasts SE) (hb : SE1.BroadcastsInDim SEC ![0, 1])
    (idx : IVec SE1 32) (a : FVec Ideal SE1 .f32) (n : Fin 50000) (c : Fin 64) :
    Host.scatterAdd d1 (broadcastInDim SN ![] hz1 (constant (F := Ideal) S0 .f32 0x00000000#32)) idx (shapeCast SE a hsc) (ix1 n)
      = Host.scatterAdd d2 (broadcastInDim SNC ![] hz2 (constant (F := Ideal) S0 .f32 0x00000000#32)) idx
          (broadcastInDim SEC ![0, 1] hb a) (ix2 n c) :=
  Cert.Lib.ScatterVector.vector_eq_rows d1 a1 a2 a3 a4 d2 b1 b2 b3 b4 _ _ idx _ _ n c rfl (fun e =>
    (Cert.Lib.ColumnVector.shapeCast_a1_a_apply a hsc e).trans
      (Cert.Lib.HostColumns.bcast_a1_ab_apply hb a e c).symm)

/-- Dividing by a total formed once per node and repeated along the row, where it is positive, is dividing entry by
    entry by any matrix of totals that agrees with it in every column. -/
theorem normalise_eq
    (hz3 : S0.BroadcastsInDim SN1 ![]) (hz2 : S0.BroadcastsInDim SNC ![])
    (hc : SN.BroadcastsInDim SN1 ![0]) (hr : SN1.BroadcastsInDim SNC ![0, 1])
    (num D2 : FVec Ideal SNC .f32) (D1 : FVec Ideal SN .f32) (hD : ∀ (n : Fin 50000) (c : Fin 64), D1 (ix1 n) = D2 (ix2 n c)) :
    select (broadcastInDim SNC ![0, 1] hr
        (cmpf .ogt (broadcastInDim SN1 ![0] hc D1) (broadcastInDim SN1 ![] hz3 (constant (F := Ideal) S0 .f32 0x00000000#32))))
      (Host.divf num (broadcastInDim SNC ![0, 1] hr (broadcastInDim SN1 ![0] hc D1))) num
    = select (cmpf .ogt D2 (broadcastInDim SNC ![] hz2 (constant (F := Ideal) S0 .f32 0x00000000#32))) (Host.divf num D2) num := by
  funext i
  obtain ⟨n, c, rfl⟩ : ∃ (n : Fin 50000) (c : Fin 64), i = ix2 n c := ⟨i 0, i 1, eq_ix2 i⟩
  have hB : broadcastInDim SNC ![0, 1] hr (broadcastInDim SN1 ![0] hc D1) (ix2 n c) = D2 (ix2 n c) := by
    rw [Cert.Lib.HostColumns.bcast_a1_ab_apply, Cert.Lib.HostColumns.bcast_a_a1_apply]
    exact hD n c
  have hA : broadcastInDim SNC ![0, 1] hr
        (cmpf .ogt (broadcastInDim SN1 ![0] hc D1) (broadcastInDim SN1 ![] hz3 (constant (F := Ideal) S0 .f32 0x00000000#32))) (ix2 n c)
      = cmpf .ogt D2 (broadcastInDim SNC ![] hz2 (constant (F := Ideal) S0 .f32 0x00000000#32)) (ix2 n c) := by
    rw [Cert.Lib.HostColumns.bcast_a1_ab_apply]
    show FloatOps.cmpf .ogt (broadcastInDim SN1 ![0] hc D1 (ix2 n (0 : Fin 1))) (Ideal.ofBits .f32 0x00000000#32)
      = FloatOps.cmpf .ogt (D2 (ix2 n c)) (Ideal.ofBits .f32 0x00000000#32)
    rw [Cert.Lib.HostColumns.bcast_a_a1_apply, hD n c]
  show Scalar.select _ (FloatOps.hostDivf _ _) _ = Scalar.select _ (FloatOps.hostDivf _ _) _
  rw [hA, hB]

end Cert.NodeNormalise

end
-- ==== Proof.Aggregate.lean ====
/-
  THE AGGREGATION OVER THE EDGES INTO EACH NODE, AND ITS NORMALISATION, in its two spellings.

  Given the destination index column dst, the weighted messages wm (one row per edge) and the weights wc (one per edge, a
  column): num = the rows of wm scatter-added into the nodes; den = the total weight per node; the result is num / den
  where den > 0 and num elsewhere. `outOnce` forms den once per node (a vector, laid down a column, repeated along the
  row); `outPerColumn` forms it in every column. They are the same matrix (`outOnce_eq_outPerColumn`).
-/
import proofs.«158273_j61400852463921_2_alg».proof.Proof.NodeNormalise

noncomputable section

namespace Cert.Aggregate

open Idealize.ShloMosaic Idealize.ShloMosaic.ValueIdx Cert.NodeNormalise

/-- A column of one weight per edge may be repeated along the 64 coordinates of the edge's row. -/
theorem column_along_rows : SE1.BroadcastsInDim SEC ![0, 1] := by decide

section
variable (d1 : ScatterDims SN SE1 SE) (d2 : ScatterDims SNC SE1 SEC)
  (hz1 : S0.BroadcastsInDim SN ![]) (hz2 : S0.BroadcastsInDim SNC ![]) (hz3 : S0.BroadcastsInDim SN1 ![])
  (hc : SN.BroadcastsInDim SN1 ![0]) (hr : SN1.BroadcastsInDim SNC ![0, 1])
  (hsc : SE1.ShapeCasts SE) (hb : SE1.BroadcastsInDim SEC ![0, 1])
  (dst : IVec SE1 32) (wm : FVec Ideal SEC .f32) (wc : FVec Ideal SE1 .f32)

/-- The aggregate rows. -/
def num : FVec Ideal SNC .f32 :=
  Host.scatterAdd d2 (broadcastInDim SNC ![] hz2 (constant (F := Ideal) S0 .f32 0x00000000#32)) dst wm

/-- The total weight per node, formed once. -/
def denOnce : FVec Ideal SN .f32 :=
  Host.scatterAdd d1 (broadcastInDim SN ![] hz1 (constant (F := Ideal) S0 .f32 0x00000000#32)) dst (shapeCast SE wc hsc)

/-- The total weight per node, formed in every column. -/
def denPerColumn : FVec Ideal SNC .f32 :=
  Host.scatterAdd d2 (broadcastInDim SNC ![] hz2 (constant (F := Ideal) S0 .f32 0x00000000#32)) dst (broadcastInDim SEC ![0, 1] hb wc)

/-- Normalised with the total formed once. -/
def outOnce : FVec Ideal SNC .f32 :=
  select (broadcastInDim SNC ![0, 1] hr
      (cmpf .ogt (broadcastInDim SN1 ![0] hc (denOnce d1 hz1 hsc dst wc))
        (broadcastInDim SN1 ![] hz3 (constant (F := Ideal) S0 .f32 0x00000000#32))))
    (Host.divf (num d2 hz2 dst wm) (broadcastInDim SNC ![0, 1] hr (broadcastInDim SN1 ![0] hc (denOnce d1 hz1 hsc dst wc))))
    (num d2 hz2 dst wm)

/-- Normalised with the total formed in every column. -/
def outPerColumn : FVec Ideal SNC .f32 :=
  select (cmpf .ogt (denPerColumn d2 hz2 hb dst wc) (broadcastInDim SNC ![] hz2 (constant (F := Ideal) S0 .f32 0x00000000#32)))
    (Host.divf (num d2 hz2 dst wm) (denPerColumn d2 hz2 hb dst wc)) (num d2 hz2 dst wm)

theorem outOnce_eq_outPerColumn
    (a1 : d1.updateWindowDims = []) (a2 : d1.insertedWindowDims = [0]) (a3 : d1.scatterDimsToOperandDims = [0])
    (a4 : d1.indexVectorDim = 1)
    (b1 : d2.updateWindowDims = [1]) (b2 : d2.insertedWindowDims = [0]) (b3 : d2.scatterDimsToOperandDims = [0])
    (b4 : d2.indexVectorDim = 1) :
    outOnce d1 d2 hz1 hz2 hz3 hc hr hsc dst wm wc = outPerColumn d2 hz2 hb dst wm wc :=
  normalise_eq hz3 hz2 hc hr (num d2 hz2 dst wm) (denPerColumn d2 hz2 hb dst wc) (denOnce d1 hz1 hsc dst wc)
    (fun n c => total_once_eq_total_per_column d1 a1 a2 a3 a4 d2 b1 b2 b3 b4 hz1 hz2 hsc hb dst wc n c)

end

end Cert.Aggregate

end
-- ==== Proof.LibAfterAppend.lean ====
/-
  Folding a line of host operations that is given as two lines joined.

  The buffer contents after `l₁ ++ l₂` are those after `l₂` from the contents after `l₁`; and a property that
  holds of every operation of both lines holds of every operation of the joined line. With these a long @main
  can be cut into stretches, each folded and read by itself. A buffer that no operation of a line writes keeps its
  contents through it; `not_written` decides that side condition for a literal line.
-/
import Idealize.ShloMosaic.Lib.StableHlo.Run

namespace Cert.Lib.AfterAppend

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- A buffer that none of a line's operations writes keeps its contents through the line. -/
theorem after_kept (ops : List (HloOp τ sig Val)) (V : Valuation τ sig Val) (b : Ref sig .tc)
    (h : ∀ op ∈ ops, Proc.devRef (τ := τ) .tc b ∉ op.writes) :
    after ops V (Proc.devRef .tc b) = V (Proc.devRef .tc b) :=
  after_of_forall_not_mem ops V h

end Cert.Lib.AfterAppend

/-- Closes `∀ op ∈ ops, Proc.devRef .tc b ∉ op.writes` for a literal line of the builders' operations, each of which writes
    one buffer, none of them `b`: the membership is decided operation by operation. -/
macro "not_written" : tactic =>
  `(tactic| (refine List.forall_iff_forall_mem.mp ?_
             simp only [List.Forall, Idealize.ShloMosaic.StableHlo.nullary_writes, Idealize.ShloMosaic.StableHlo.unary_writes,
               Idealize.ShloMosaic.StableHlo.binary_writes, Idealize.ShloMosaic.StableHlo.ternary_writes,
               Idealize.ShloMosaic.StableHlo.reshape_writes, Finset.mem_singleton]
             repeat' apply And.intro
             all_goals exact Idealize.ShloMosaic.StableHlo.devRef_ne_of_ne (by decide)))
-- ==== Proof.KernelRun.lean ====
/-
  THE KERNEL PROGRAM'S RESULT, read off its run.

  After the pallas call the host program flattens the weight column, scatter-adds the weighted messages into the nodes and the
  weights into a vector of per-node totals, lays the totals down a column, compares them with zero, repeats column and
  comparison along the row, divides and selects: `Aggregate.outOnce` of the destination index column and the two arrays the
  call left, which are the specification's (`KernelArrays.final_messages`, `final_weights`). By the law of
  `Aggregate` this is the normalisation with the total formed in every column.
-/
import proofs.«158273_j61400852463921_2_alg».proof.Proof.KernelArrays
import proofs.«158273_j61400852463921_2_alg».proof.Proof.Aggregate
import proofs.«158273_j61400852463921_2_alg».proof.Proof.LibAfterAppend

set_option maxRecDepth 16384

noncomputable section

namespace Cert.KernelRun

open Idealize.ShloMosaic Idealize.ShloMosaic.TcCoe Idealize.ShloMosaic.ValueIdx Idealize.SL.Sem
open Cert.KernelIdeal Cert.KernelIdeal.Gen Cert.KernelArrays Cert.Aggregate

/-! ## The lines after the call, over any contents of the buffers they read -/

section
variable (W : Valuation τ sig (Elt Ideal))

/-- The aggregate rows: the message array scatter-added at the destination indices. -/
theorem rows_after :
    (StableHlo.after hostOps1 W (Proc.devRef .tc main_v18) : FVec Ideal S50000x64 .f32)
      = Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 (W (Proc.devRef .tc main_v3) : IVec S800000 32))
          (W (Proc.devRef .tc main_v14_0) : FVec Ideal S800000x64 .f32) := by
  simp only [hostOps1]
  after_results_simp <;> rfl

/-- The total weight per node, as a column. -/
theorem totals_after :
    (StableHlo.after hostOps1 W (Proc.devRef .tc main_v22) : FVec Ideal S50000x1 .f32)
      = broadcastInDim S50000x1 ![0] bcast_S50000_S50000x1_0
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 (W (Proc.devRef .tc main_v3) : IVec S800000 32))
            (shapeCast S800000 (W (Proc.devRef .tc main_v14_1) : FVec Ideal S800000x1 .f32) shapeCasts_S800000x1_S800000)) := by
  simp only [hostOps1]
  after_results_simp <;> rfl

/-- Where the total is positive. -/
theorem positive_after :
    (StableHlo.after hostOps1 W (Proc.devRef .tc main_v24) : IVec S50000x1 1)
      = cmpf (F := Ideal) .ogt (StableHlo.after hostOps1 W (Proc.devRef .tc main_v22) : FVec Ideal S50000x1 .f32)
          (broadcastInDim S50000x1 ![] bcast_S_S50000x1 (constant (F := Ideal) S_ .f32 0x00000000#32)) := by
  simp only [hostOps1]
  after_results_simp <;> rfl

/-- The quotient by the total repeated along the row. -/
theorem quotient_after :
    (StableHlo.after hostOps1 W (Proc.devRef .tc main_v26) : FVec Ideal S50000x64 .f32)
      = Host.divf (F := Ideal) (φ := .f32) (StableHlo.after hostOps1 W (Proc.devRef .tc main_v18) : FVec Ideal S50000x64 .f32)
          (broadcastInDim S50000x64 ![0, 1] bcast_S50000x1_S50000x64_0_1
            (StableHlo.after hostOps1 W (Proc.devRef .tc main_v22) : FVec Ideal S50000x1 .f32)) := by
  simp only [hostOps1]
  after_results_simp <;> rfl

/-- The selection: the comparison repeated along the row chooses between the quotient and the aggregate. -/
theorem select_after :
    StableHlo.after hostOps1_1 W (Proc.devRef .tc main_v27)
      = select (broadcastInDim S50000x64 ![0, 1] bcast_S50000x1_S50000x64_0_1
            (W (Proc.devRef .tc main_v24) : (⟨S50000x1, .i1⟩ : BufTy).Contents (Elt Ideal)))
          (W (Proc.devRef .tc main_v26) : (⟨S50000x64, .f32⟩ : BufTy).Contents (Elt Ideal))
          (W (Proc.devRef .tc main_v18) : (⟨S50000x64, .f32⟩ : BufTy).Contents (Elt Ideal)) := by
  simp only [hostOps1_1]
  after_results_simp <;> rfl

end

/-- The lines after the call, over any contents of the buffers they read: the destination vector d, the message array x7
    and the weight array x8. -/
theorem tail_of (W : Valuation τ sig (Elt Ideal)) (d : (⟨S800000, .i32⟩ : BufTy).Contents (Elt Ideal))
    (x7 : (⟨S800000x64, .f32⟩ : BufTy).Contents (Elt Ideal)) (x8 : (⟨S800000x1, .f32⟩ : BufTy).Contents (Elt Ideal))
    (h3 : W (Proc.devRef .tc main_v3) = d) (h7 : W (Proc.devRef .tc main_v14_0) = x7) (h8 : W (Proc.devRef .tc main_v14_1) = x8) :
    StableHlo.after (List.flatten [hostOps1, hostOps1_1]) W (Proc.devRef .tc main_v27)
      = outOnce scatter_S50000_S800000x1_S800000_n_0_0_1 scatter_S50000x64_S800000x1_S800000x64_1_0_0_1
          bcast_S_S50000 bcast_S_S50000x64 bcast_S_S50000x1 bcast_S50000_S50000x1_0 bcast_S50000x1_S50000x64_0_1
          shapeCasts_S800000x1_S800000 (broadcastInDim S800000x1 ![0] bcast_S800000_S800000x1_0 d) x7 x8 := by
  subst h3 h7 h8
  have e : List.flatten [(hostOps1 : List (HloOp τ sig (Elt Ideal))), hostOps1_1] = hostOps1 ++ hostOps1_1 := by
    simp only [List.flatten_cons, List.flatten_nil, List.append_nil]
  rw [e, Cert.Lib.AfterAppend.after_append, select_after, positive_after, quotient_after, totals_after, rows_after]
  rfl

variable (m : (ℓ : Loc nD τ sig) → Buf (Elt Ideal) ℓ)

/-- The destination indices as the scatters read them: a column. -/
def dst (c : Dev nD) : IVec S800000x1 32 := broadcastInDim S800000x1 ![0] bcast_S800000_S800000x1_0 (V m c main_v3)

/-- The result buffer after the lines that follow the call. -/
theorem tail_value (c : Dev nD) :
    Pipeline.afterTail₀ cfgs (dats m) 0 (V0 m) [hostOps1, hostOps1_1] c main_v27
      = outPerColumn scatter_S50000x64_S800000x1_S800000x64_1_0_0_1 bcast_S_S50000x64 column_along_rows
          (dst m c) (wm m c) (wc m c) := by
  unfold Pipeline.afterTail₀
  refine (tail_of _ (V m c main_v3) (wm m c) (wc m c)
    (Pipeline.withArrays_of_ne _ c (V0 m c) _ main_v3 (by exact (by decide : ∀ w, Pipeline.arrRef spec0 w ≠ main_v3)))
    ((Pipeline.withArrays_arr spec0 launch0.win.arr_inj c _ _ 7).trans (final_messages m c))
    ((Pipeline.withArrays_arr spec0 launch0.win.arr_inj c _ _ 8).trans (final_weights m c))).trans ?_
  exact outOnce_eq_outPerColumn _ _ _ _ _ _ _ _ column_along_rows _ _ _ rfl rfl rfl rfl rfl rfl rfl rfl

/-- THE RUN: every weakly fair execution of the kernel program terminates with its result at the normalised aggregation
    of the specification's arrays and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v27)
          = outPerColumn scatter_S50000x64_S800000x1_S800000x64_1_0_0_1 bcast_S_S50000x64 column_along_rows
              (dst m c) (wm m c) (wc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v27 (Pipeline.mem_restRefs_of main_v27 (by decide) (by decide))).trans (tail_value m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelRun

end
-- ==== Proof.ReferenceEdges.lean ====
/-
  THE REFERENCE, STAGE BY STAGE, IS THE SPECIFICATION.

  Read at edge e: the first dense layer with its bias row and tanh is `EdgeFilter.hidden` of the edge's feature row, the
  second with its bias is `EdgeFilter.filt`, the product with the gathered row is the message, the contraction of the
  message with the coefficient column followed by exp is the weight; the message times the weight repeated along the
  row is the weighted message. The rest of the program — the two scatter-adds at the destination indices, the comparison
  of the total weight with zero, the quotient and the selection — is `Aggregate.outPerColumn` of those two arrays.
-/
import proofs.«158273_j61400852463921_2_alg».proof.Proof.Gen.ReferenceIdeal.Read
import proofs.«158273_j61400852463921_2_alg».proof.Proof.EdgeFilter
import proofs.«158273_j61400852463921_2_alg».proof.Proof.Aggregate

noncomputable section

namespace Cert.ReferenceEdges

open Idealize.ShloMosaic Idealize.ShloMosaic.ValueIdx Cert.ReferenceIdeal Cert.ReferenceIdeal.Read Cert.EdgeFilter

variable [Cert.ReferenceIdeal.Facts]

open Cert.ReferenceIdeal.Facts₀

section
variable (x0 : (⟨S50000x64, .f32⟩ : BufTy).Contents (Elt Ideal)) (x1 : (⟨S800000x64, .f32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x1, .f32⟩ : BufTy).Contents (Elt Ideal)) (x7 : (⟨S800000x2, .i32⟩ : BufTy).Contents (Elt Ideal))

theorem hidden_at (e : Fin 800000) (k : Fin 64) :
    val_main_v4 (F := Ideal) x1 x2 x3 (ix2 e k)
      = hidden (fun j => x1 (ix2 e j)) (fun j k => x2 (ix2 j k)) (fun k => x3 (ix1 k)) k := by
  rw [val_main_v4_apply, val_main_v3_apply, val_main_v0_apply, val_main_v2_apply, val_main_v1_apply]
  have hl : ∀ j : Fin 64, lidx_main_v0 (ix2 e k) j = ix2 e j := fun j => funext fun a => Fin.ext (by
    match a with
    | ⟨0, _⟩ => rfl
    | ⟨1, _⟩ => rfl)
  have hr : ∀ j : Fin 64, ridx_main_v0 (ix2 e k) j = ix2 j k := fun j => funext fun a => Fin.ext (by
    match a with
    | ⟨0, _⟩ => rfl
    | ⟨1, _⟩ => rfl)
  have hb : idx_main_v1 (idx_main_v2 (ix2 e k)) = ix1 k := funext fun a => Fin.ext (by
    match a with
    | ⟨0, _⟩ => rfl)
  simp only [hl, hr, hb]
  rfl

theorem filt_at (e : Fin 800000) (c : Fin 64) :
    val_main_v8 (F := Ideal) x1 x2 x3 x4 x5 (ix2 e c)
      = filt (fun j => x1 (ix2 e j)) (fun j k => x2 (ix2 j k)) (fun k => x3 (ix1 k)) (fun k c => x4 (ix2 k c))
          (fun c => x5 (ix1 c)) c := by
  rw [val_main_v8_apply, val_main_v5_apply, val_main_v7_apply, val_main_v6_apply]
  have hl : ∀ k : Fin 64, lidx_main_v5 (ix2 e c) k = ix2 e k := fun k => funext fun a => Fin.ext (by
    match a with
    | ⟨0, _⟩ => rfl
    | ⟨1, _⟩ => rfl)
  have hr : ∀ k : Fin 64, ridx_main_v5 (ix2 e c) k = ix2 k c := fun k => funext fun a => Fin.ext (by
    match a with
    | ⟨0, _⟩ => rfl
    | ⟨1, _⟩ => rfl)
  have hb : idx_main_v6 (idx_main_v7 (ix2 e c)) = ix1 c := funext fun a => Fin.ext (by
    match a with
    | ⟨0, _⟩ => rfl)
  simp only [hl, hr, hb, hidden_at]
  rfl

theorem msg_at (e : Fin 800000) (c : Fin 64) :
    val_main_v18 (F := Ideal) x0 x1 x2 x3 x4 x5 x7 (ix2 e c) = msgAt x1 (val_main_v17 (F := Ideal) x0 x7) x2 x3 x4 x5 e c := by
  rw [val_main_v18_apply, filt_at]
  rfl

theorem weight_at (e : Fin 800000) (u : Fin 1) :
    val_main_v20 (F := Ideal) x0 x1 x2 x3 x4 x5 x6 x7 (ix2 e u)
      = weightAt x1 (val_main_v17 (F := Ideal) x0 x7) x2 x3 x4 x5 x6 e := by
  obtain rfl : u = 0 := Subsingleton.elim _ _
  rw [val_main_v20_apply, val_main_v19_apply]
  have hl : ∀ k : Fin 64, lidx_main_v19 (ix2 e (0 : Fin 1)) k = ix2 e k := fun k => funext fun a => Fin.ext (by
    match a with
    | ⟨0, _⟩ => rfl
    | ⟨1, _⟩ => rfl)
  have hr : ∀ k : Fin 64, ridx_main_v19 (ix2 e (0 : Fin 1)) k = ix2 k (0 : Fin 1) := fun k => funext fun a => Fin.ext (by
    match a with
    | ⟨0, _⟩ => rfl
    | ⟨1, _⟩ => rfl)
  simp only [hl, hr, msg_at]
  rfl

/-- The reference's weighted messages are the specification's. -/
theorem weighted_eq :
    val_main_v24 (F := Ideal) x0 x1 x2 x3 x4 x5 x6 x7 = weighted x1 (val_main_v17 (F := Ideal) x0 x7) x2 x3 x4 x5 x6 := by
  funext i
  obtain ⟨e, c, rfl⟩ : ∃ (e : Fin 800000) (c : Fin 64), i = ix2 e c := ⟨i 0, i 1, eq_ix2 i⟩
  rw [val_main_v24_apply, val_main_v23_apply, msg_at]
  have h : idx_main_v23 (ix2 e c) = ix2 e (0 : Fin 1) := funext fun a => Fin.ext (by
    match a with
    | ⟨0, _⟩ => rfl
    | ⟨1, _⟩ => rfl)
  rw [h, weight_at]
  rfl

/-- The reference's weights are the specification's. -/
theorem weightCol_eq :
    val_main_v20 (F := Ideal) x0 x1 x2 x3 x4 x5 x6 x7 = weightCol x1 (val_main_v17 (F := Ideal) x0 x7) x2 x3 x4 x5 x6 := by
  funext i
  obtain ⟨e, u, rfl⟩ : ∃ (e : Fin 800000) (u : Fin 1), i = ix2 e u := ⟨i 0, i 1, eq_ix2 i⟩
  exact weight_at x0 x1 x2 x3 x4 x5 x6 x7 e u

/-- The reference's result: the aggregation normalised with the total weight formed in every column. -/
theorem result_eq :
    val_main_v35 (F := Ideal) x0 x1 x2 x3 x4 x5 x6 x7
      = Cert.Aggregate.outPerColumn scatter_S50000x64_S800000x1_S800000x64_1_0_0_1 bcast_S_S50000x64 bcast_S800000x1_S800000x64_0_1
          (val_main_v26 (F := Ideal) x7) (weighted x1 (val_main_v17 (F := Ideal) x0 x7) x2 x3 x4 x5 x6)
          (weightCol x1 (val_main_v17 (F := Ideal) x0 x7) x2 x3 x4 x5 x6) := by
  rw [← weighted_eq, ← weightCol_eq]
  rfl

end

end Cert.ReferenceEdges

end
-- ==== Proof.lean ====
/-
  A continuous-filter convolution over a graph with edge attention, 50000 nodes, 800000 edges, 64 channels: per edge a
  two-layer filter network of the edge features (tanh between the layers) multiplies the embedding gathered from the edge's
  source node; the message's contraction with a coefficient vector, exponentiated, is the edge's attention weight; the
  weighted messages and the weights are summed over the edges into each destination node, and a node's sum is divided by
  its total weight where that total is positive.

  The kernel program gathers on the host, computes the weighted messages and the weights in a pallas call over 100 blocks of
  8000 edges, and aggregates on the host, forming the total weight once per node; the reference does everything on whole
  arrays and forms the total weight in every column. On the extended reals the two results are one function of the
  arguments: the call's two arrays are the reference's two stages (`KernelArrays`, `ReferenceEdges`, over the per-edge
  functions of `EdgeFilter`), and the two ways of forming the total agree because the edges landing on (n, c) are the
  edges into n for every column c (`Aggregate`, `NodeNormalise`, `LibScatterVector`). No finiteness of the inputs is used.
-/
import proofs.«158273_j61400852463921_2_alg».proof.Defs
import proofs.«158273_j61400852463921_2_alg».proof.Proof.Gen.Kernel
import proofs.«158273_j61400852463921_2_alg».proof.Proof.Gen.Kernel.Skeleton
import proofs.«158273_j61400852463921_2_alg».proof.Proof.Gen.Kernel.Launch
import proofs.«158273_j61400852463921_2_alg».proof.Proof.Gen.Kernel.Points
import proofs.«158273_j61400852463921_2_alg».proof.Proof.Gen.Kernel.Frame
import proofs.«158273_j61400852463921_2_alg».proof.Proof.Gen.KernelIdeal
import proofs.«158273_j61400852463921_2_alg».proof.Proof.Gen.KernelIdeal.Skeleton
import proofs.«158273_j61400852463921_2_alg».proof.Proof.Gen.KernelIdeal.Launch
import proofs.«158273_j61400852463921_2_alg».proof.Proof.Gen.KernelIdeal.Points
import proofs.«158273_j61400852463921_2_alg».proof.Proof.Gen.KernelIdeal.Frame
import proofs.«158273_j61400852463921_2_alg».proof.Proof.Gen.ReferenceIdeal
import proofs.«158273_j61400852463921_2_alg».proof.Proof.Gen.ReferenceIdeal.Run
import proofs.«158273_j61400852463921_2_alg».proof.Proof.Gen.ReferenceIdeal.Read
import proofs.«158273_j61400852463921_2_alg».proof.Proof.Gen.Pre_finite_inputs
import proofs.«158273_j61400852463921_2_alg».proof.Proof.KernelRun
import proofs.«158273_j61400852463921_2_alg».proof.Proof.ReferenceEdges
import Idealize.ShloMosaic.Adequacy
import Idealize.ShloMosaic.Init

set_option maxRecDepth 16384

noncomputable section

namespace Cert.Proof

open Idealize.ShloMosaic Idealize.ShloMosaic.TcCoe Idealize.SL.Sem

/-! ## The arrays the kernel program's host lines prepare are the reference's stages -/

section
variable (m : (ℓ : Loc Cert.KernelIdeal.nD Cert.KernelIdeal.τ Cert.KernelIdeal.sig) → Buf (Elt Ideal) ℓ)

/-- The rows gathered at the (wrapped) source indices. -/
theorem gathered_eq (c : Dev Cert.KernelIdeal.nD) :
    Cert.KernelIdeal.Gen.V m c Cert.KernelIdeal.main_v10
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg7)) := by
  show StableHlo.after Cert.KernelIdeal.Gen.hostOps0 (fun b => m (c, b)) (Proc.devRef .tc Cert.KernelIdeal.main_v10) = _
  after_results <;> rfl

/-- The destination indices as a column. -/
theorem dst_eq (c : Dev Cert.KernelIdeal.nD) :
    Cert.KernelRun.dst m c
      = Cert.ReferenceIdeal.Read.val_main_v26 (F := Ideal)
          (m ((c.tc : Thread Cert.KernelIdeal.nD Cert.KernelIdeal.τ).loc Cert.KernelIdeal.main_arg7)) := by
  have h : Cert.KernelIdeal.Gen.V m c Cert.KernelIdeal.main_v3
      = Cert.ReferenceIdeal.Read.val_main_v22 (F := Ideal)
          (m ((c.tc : Thread Cert.KernelIdeal.nD Cert.KernelIdeal.τ).loc Cert.KernelIdeal.main_arg7)) := by
    show StableHlo.after Cert.KernelIdeal.Gen.hostOps0 (fun b => m (c, b)) (Proc.devRef .tc Cert.KernelIdeal.main_v3) = _
    after_results <;> rfl
  unfold Cert.KernelRun.dst
  rw [h]
  rfl

/-- The kernel program's result is the reference's last stage of the same arguments. -/
theorem kernel_value (c : Dev Cert.KernelIdeal.nD) :
    Cert.Aggregate.outPerColumn Cert.KernelIdeal.scatter_S50000x64_S800000x1_S800000x64_1_0_0_1
        Cert.KernelIdeal.Gen.bcast_S_S50000x64 Cert.Aggregate.column_along_rows
        (Cert.KernelRun.dst m c) (Cert.KernelArrays.wm m c) (Cert.KernelArrays.wc m c)
      = Cert.ReferenceIdeal.Read.val_main_v35 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  rw [Cert.ReferenceEdges.result_eq]
  unfold Cert.KernelArrays.wm Cert.KernelArrays.wc
  rw [gathered_eq, dst_eq]
  rfl

end

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the reference's last stage of the (agreeing) arguments. -/
theorem algebraic : Cert.algebraic_KernelIdeal_ReferenceIdeal := by
  intro m ρ m' ρ' _ hagree
  refine ⟨fun c => Cert.ReferenceIdeal.Read.val_main_v35 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun _ h c => ⟨(h c).1.trans (kernel_value m c), (h c).2⟩)
      (Cert.KernelRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
